-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S50000x32 : Shape := ⟨2, ![50000, 32]⟩
abbrev S2000x32 : Shape := ⟨2, ![2000, 32]⟩
abbrev S850000x32 : Shape := ⟨2, ![850000, 32]⟩
abbrev S1x32 : Shape := ⟨2, ![1, 32]⟩
abbrev S50000x1 : Shape := ⟨2, ![50000, 1]⟩
abbrev S2000x1 : Shape := ⟨2, ![2000, 1]⟩
abbrev S1x1 : Shape := ⟨2, ![1, 1]⟩

abbrev nBuf : Space → Nat
  | .hbm => 114
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x32, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x32, .f32⟩
  | .hbm, ⟨81, _⟩ => ⟨S850000x1, .f32⟩
  | .hbm, ⟨82, _⟩ => ⟨S850000x32, .f32⟩
  | .hbm, ⟨83, _⟩ => ⟨S850000x32, .f32⟩
  | .hbm, ⟨84, _⟩ => ⟨S_, .f32⟩
  | .hbm, ⟨85, _⟩ => ⟨S50000x32, .f32⟩
  | .hbm, ⟨86, _⟩ => ⟨S850000x1, .i32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x1, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x1, .f32⟩
  | .hbm, ⟨104, _⟩ => ⟨S850000x1, .f32⟩
  | .hbm, ⟨105, _⟩ => ⟨S850000x1, .f32⟩
  | .hbm, ⟨106, _⟩ => ⟨S_, .f32⟩
  | .hbm, ⟨107, _⟩ => ⟨S50000x1, .f32⟩
  | .hbm, ⟨108, _⟩ => ⟨S850000x1, .i32⟩
  | .hbm, ⟨109, _⟩ => ⟨S50000x1, .f32⟩
  | .hbm, ⟨110, _⟩ => ⟨S1x1, .f32⟩
  | .hbm, ⟨111, _⟩ => ⟨S50000x1, .f32⟩
  | .hbm, ⟨112, _⟩ => ⟨S50000x1, .f32⟩
  | .hbm, ⟨113, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x1, .f32⟩
  | .local _ .vmem, ⟨13, _⟩ => ⟨S2000x1, .f32⟩
  | .local _ .vmem, ⟨14, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S2000x32_S2000x32 : S2000x32.ShapeCasts S2000x32
  inb_S32x1_S32x1_0_0 : ∀ a, (![0, 0] : Fin 2 → Nat) a + S32x1.size a ≤ S32x1.size a
  h_S32x1 : 0 < S32x1.numel
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x32_S2000x32_1_0_0_1_n_n_wf : DotDims.WF S2000x64 S64x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S2000x32_S32x1_S2000x1_1_0_0_1_n_n_wf : DotDims.WF S2000x32 S32x1 S2000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S50000x32.size a
  hwx1_2 : ∀ i : grid1.Coords, EltTy.bits .f32 = 32 ∨ (Rect.block (s := S50000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x32, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x32, .f32⟩
  | .hbm, ⟨81, _⟩ => ⟨S850000x1, .f32⟩
  | .hbm, ⟨82, _⟩ => ⟨S850000x32, .f32⟩
  | .hbm, ⟨83, _⟩ => ⟨S850000x32, .f32⟩
  | .hbm, ⟨84, _⟩ => ⟨S_, .f32⟩
  | .hbm, ⟨85, _⟩ => ⟨S50000x32, .f32⟩
  | .hbm, ⟨86, _⟩ => ⟨S850000x1, .i32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x1, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x1, .f32⟩
  | .hbm, ⟨104, _⟩ => ⟨S850000x1, .f32⟩
  | .hbm, ⟨105, _⟩ => ⟨S850000x1, .f32⟩
  | .hbm, ⟨106, _⟩ => ⟨S_, .f32⟩
  | .hbm, ⟨107, _⟩ => ⟨S50000x1, .f32⟩
  | .hbm, ⟨108, _⟩ => ⟨S850000x1, .i32⟩
  | .hbm, ⟨109, _⟩ => ⟨S50000x1, .f32⟩
  | .hbm, ⟨110, _⟩ => ⟨S1x1, .f32⟩
  | .hbm, ⟨111, _⟩ => ⟨S50000x1, .f32⟩
  | .hbm, ⟨112, _⟩ => ⟨S50000x1, .f32⟩
  | .hbm, ⟨113, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x1_S50000x1_1_0_0_1_n_n_wf : DotDims.WF S50000x32 S32x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KernelRun.lean ====
/-
  The accelerator program's run with its RESULT named. The program is eleven segments — stretches of host operations and
  three kernel regions; the contents of every buffer at each segment boundary are a fold from the launch memory
  (`Gen.W0` … `Gen.W11`). Every weakly fair execution terminates, the arguments end as launched, and the result
  buffer ends at what the last boundary's fold holds there. The argument is the frame's own: the segments run in
  order over the thread state "every unscoped buffer at the boundary's contents", and the last thread state is
  read against the final memory; here the result buffer is read off that state beside the arguments.
-/
import proofs.«156860_j27178553049644_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the accelerator program terminates, nothing faulting; the result buffer ends at the
    last segment boundary's contents and the argument arrays end as launched. -/
theorem run : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunV

end
-- ==== Proof.RefArgs.lean ====
/-
  The reference program never writes an argument: folded over any contents, its line of operations leaves each of the
  eight argument buffers as it found it.
-/
import proofs.«156860_j27178553049644_1_alg».proof.Proof.RefRun

set_option maxRecDepth 16384

noncomputable section

open Idealize.ShloMosaic Idealize.ShloMosaic.TcCoe Idealize.SL.Sem Idealize.ShloMosaic.StableHlo

namespace Cert.ReferenceIdeal.RefArgs

open Cert.ReferenceIdeal Cert.ReferenceIdeal.RunP

variable {F : FTy → Type} [FloatOps F] (V : Valuation τ sig (Elt F))

set_option maxHeartbeats 4000000 in
theorem keep_arg0 : after (ops (F := F)) V (Proc.devRef .tc main_arg0) = V (Proc.devRef .tc main_arg0) := by
  after_results_simp
set_option maxHeartbeats 4000000 in
theorem keep_arg1 : after (ops (F := F)) V (Proc.devRef .tc main_arg1) = V (Proc.devRef .tc main_arg1) := by
  after_results_simp
set_option maxHeartbeats 4000000 in
theorem keep_arg2 : after (ops (F := F)) V (Proc.devRef .tc main_arg2) = V (Proc.devRef .tc main_arg2) := by
  after_results_simp
set_option maxHeartbeats 4000000 in
theorem keep_arg3 : after (ops (F := F)) V (Proc.devRef .tc main_arg3) = V (Proc.devRef .tc main_arg3) := by
  after_results_simp
set_option maxHeartbeats 4000000 in
theorem keep_arg4 : after (ops (F := F)) V (Proc.devRef .tc main_arg4) = V (Proc.devRef .tc main_arg4) := by
  after_results_simp
set_option maxHeartbeats 4000000 in
theorem keep_arg5 : after (ops (F := F)) V (Proc.devRef .tc main_arg5) = V (Proc.devRef .tc main_arg5) := by
  after_results_simp
set_option maxHeartbeats 4000000 in
theorem keep_arg6 : after (ops (F := F)) V (Proc.devRef .tc main_arg6) = V (Proc.devRef .tc main_arg6) := by
  after_results_simp
set_option maxHeartbeats 4000000 in
theorem keep_arg7 : after (ops (F := F)) V (Proc.devRef .tc main_arg7) = V (Proc.devRef .tc main_arg7) := by
  after_results_simp

end Cert.ReferenceIdeal.RefArgs

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«156860_j27178553049644_1_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.Region0.lean ====
/-
  Region 0 of the accelerator program as ONE whole-array function. The grid has 25 points; point t stages rows
  2000·t … 2000·t + 1999 of the [50000,128] operand and the whole [128,64] weight, multiplies them on the matrix unit
  (each rounded to bf16 first, which is the identity on the extended reals) into zeros, and writes rows
  2000·t … 2000·t + 1999 of the [50000,64] result. Entry (r, q) of the block point t writes is
  ∑ c, X (2000·t + r, c) · W (c, q): exactly entry (2000·t + r, q) of the host product X · W. The 25 blocks tile the
  result's rows, so after the region the result array IS the host product of the two arrays the region found.
-/
import proofs.«156860_j27178553049644_1_alg».proof.Proof.Gen.KernelIdeal.Frame
import proofs.«156860_j27178553049644_1_alg».proof.Proof.Gen.ReferenceIdeal
import proofs.«156860_j27178553049644_1_alg».proof.Proof.LibDotNN
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The host product of the two arrays the region's input windows range over. -/
def prod (c : Dev nD) : Buf (Elt Ideal) ((c : Thread nD τ).loc main_v30) :=
  Host.dotGeneral (F := Ideal) (φ₁ := .f32) (φ₂ := .f32) Cert.ReferenceIdeal.dot_S50000x128_S128x64_S50000x64_1_0_0_1_n_n none
    (V c main_arg0 : FVec Ideal S50000x128 .f32) (V c main_arg2 : FVec Ideal S128x64 .f32)

/-- The body's stored value at (r, q): the sum over c of the products of the loaded blocks' entries. -/
theorem pay_apply (x0 : Vec Ideal S2000x128 .f32) (x1 : Vec Ideal S128x64 .f32) (r : Fin 2000) (q : Fin 64) :
    k0_pay1 x0 x1 (ix2 r q) = ∑ c : Fin 128, x0 (ix2 r c) * x1 (ix2 c q) := by
  unfold k0_pay1
  exact Cert.LibDotNN.matmul_rounded_apply dot_S2000x128_S128x64_S2000x64_1_0_0_1_n_n_wf none .bf16 bitsLt_bf16_f32 bitsLt_bf16_f32 x0 x1 r q

/-- Where the windows' blocks sit, decided over the grid: the operand's and the result's blocks at point t are row
    block t, the weight's block is the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  refine funext fun (y : S2000x64.Idx) => ?_
  obtain ⟨r, q, rfl⟩ : ∃ (r : Fin 2000) (q : Fin 64), y = ix2 r q := ⟨y 0, y 1, eq_ix2 y⟩
  show k0_pay1 (iblk0 V c 0 t) (iblk0 V c 1 t) (ix2 r q) = prod V c (((cfg0.win 2).blk t).view.emb (ix2 r q))
  refine (pay_apply (iblk0 V c 0 t) (iblk0 V c 1 t) r q).trans ?_
  unfold prod
  refine Eq.trans ?_ (Cert.LibDotNN.dotGeneral_nn_apply_idx Cert.ReferenceIdeal.Gen.dot_S50000x128_S128x64_S50000x64_1_0_0_1_n_n_wf none
    (V c main_arg0 : FVec Ideal S50000x128 .f32) (V c main_arg2 : FVec Ideal S128x64 .f32) (((cfg0.win 2).blk t).view.emb (ix2 r q))).symm
  refine Finset.sum_congr rfl fun k _ => ?_
  have hl : ((cfg0.win 0).blk t).view.emb (ix2 r k) = ix2 ((((cfg0.win 2).blk t).view.emb (ix2 r q)) 0) k := by
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 128 + 1 * k.val = k.val; omega
  have hr : ((cfg0.win 1).blk t).view.emb (ix2 k q) = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ _ ?_ ?_
  · exact congrArg (V c main_arg0 : FVec Ideal S50000x128 .f32) hl
  · exact congrArg (V c main_arg2 : FVec Ideal S128x64 .f32) hr

/-- An index of the result array is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every row of the result lies in the block of the point numbered by the row divided by 2000. -/
theorem cover (i : S50000x64.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 64 := (i 1).isLt
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region its result array is the host product of the arrays its input windows range over. -/
theorem result_eq (c : Dev nD) : (dat0 V c).arrAt 2 cfg0.N = prod V c :=
  (dat0 V c).arrAt_eq_of_cover 2 (prod V c) (fun t _ => flushed_eq V c t) (cover)

end Cert.KernelIdeal.Region0

end
-- ==== Proof.Region1.lean ====
/-
  Region 1 of the accelerator program as ONE whole-array function. The grid has 25 points; point t stages rows
  2000·t … 2000·t + 1999 of the [50000,64] operand and the whole [64,32] weight, multiplies them on the matrix unit
  (each rounded to bf16 first, which is the identity on the extended reals) into zeros, and writes rows
  2000·t … 2000·t + 1999 of the [50000,32] result. Entry (r, q) of the block point t writes is
  ∑ c, X (2000·t + r, c) · W (c, q): exactly entry (2000·t + r, q) of the host product X · W. The 25 blocks tile the
  result's rows, so after the region the result array IS the host product of the two arrays the region found.
-/
import proofs.«156860_j27178553049644_1_alg».proof.Proof.Gen.KernelIdeal.Frame
import proofs.«156860_j27178553049644_1_alg».proof.Proof.Gen.ReferenceIdeal
import proofs.«156860_j27178553049644_1_alg».proof.Proof.LibDotNN
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The host product of the two arrays the region's input windows range over. -/
def prod (c : Dev nD) : Buf (Elt Ideal) ((c : Thread nD τ).loc main_v48) :=
  Host.dotGeneral (F := Ideal) (φ₁ := .f32) (φ₂ := .f32) Cert.ReferenceIdeal.dot_S50000x64_S64x32_S50000x32_1_0_0_1_n_n none
    (V c main_v47 : FVec Ideal S50000x64 .f32) (V c main_arg4 : FVec Ideal S64x32 .f32)

/-- The body's stored value at (r, q): the sum over c of the products of the loaded blocks' entries. -/
theorem pay_apply (x0 : Vec Ideal S2000x64 .f32) (x1 : Vec Ideal S64x32 .f32) (r : Fin 2000) (q : Fin 32) :
    k1_pay1 x0 x1 (ix2 r q) = ∑ c : Fin 64, x0 (ix2 r c) * x1 (ix2 c q) := by
  unfold k1_pay1
  rw [shapeCast_self]
  exact Cert.LibDotNN.matmul_rounded_apply dot_S2000x64_S64x32_S2000x32_1_0_0_1_n_n_wf none .bf16 bitsLt_bf16_f32 bitsLt_bf16_f32 x0 x1 r q

/-- Where the windows' blocks sit, decided over the grid: the operand's and the result's blocks at point t are row
    block t, the weight's block is the whole weight. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the host product. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x32) hz]
  obtain ⟨e0, e1, e2, e3, e4, e5⟩ := idx_facts t
  refine funext fun (y : S2000x32.Idx) => ?_
  obtain ⟨r, q, rfl⟩ : ∃ (r : Fin 2000) (q : Fin 32), y = ix2 r q := ⟨y 0, y 1, eq_ix2 y⟩
  show k1_pay1 (iblk1 V c 0 t) (iblk1 V c 1 t) (ix2 r q) = prod V c (((cfg1.win 2).blk t).view.emb (ix2 r q))
  refine (pay_apply (iblk1 V c 0 t) (iblk1 V c 1 t) r q).trans ?_
  unfold prod
  refine Eq.trans ?_ (Cert.LibDotNN.dotGeneral_nn_apply_idx Cert.ReferenceIdeal.Gen.dot_S50000x64_S64x32_S50000x32_1_0_0_1_n_n_wf none
    (V c main_v47 : FVec Ideal S50000x64 .f32) (V c main_arg4 : FVec Ideal S64x32 .f32) (((cfg1.win 2).blk t).view.emb (ix2 r q))).symm
  refine Finset.sum_congr rfl fun k _ => ?_
  have hl : ((cfg1.win 0).blk t).view.emb (ix2 r k) = ix2 ((((cfg1.win 2).blk t).view.emb (ix2 r q)) 0) k := by
    funext a; apply Fin.ext
    match a with
    | ⟨0, _⟩ => show win1_0.index t (0 : Fin 2) * 2000 + 1 * r.val = win1_2.index t (0 : Fin 2) * 2000 + 1 * r.val; omega
    | ⟨1, _⟩ => show win1_0.index t (1 : Fin 2) * 64 + 1 * k.val = k.val; omega
  have hr : ((cfg1.win 1).blk t).view.emb (ix2 k q) = ix2 k ((((cfg1.win 2).blk t).view.emb (ix2 r q)) 1) := by
    funext a; apply Fin.ext
    match a with
    | ⟨0, _⟩ => show win1_1.index t (0 : Fin 2) * 64 + 1 * k.val = k.val; omega
    | ⟨1, _⟩ => show win1_1.index t (1 : Fin 2) * 32 + 1 * q.val = win1_2.index t (1 : Fin 2) * 32 + 1 * q.val; omega
  refine congrArg₂ _ ?_ ?_
  · exact congrArg (V c main_v47 : FVec Ideal S50000x64 .f32) hl
  · exact congrArg (V c main_arg4 : FVec Ideal S64x32 .f32) hr

/-- An index of the result array is in point t's block iff each coordinate is in the block's range on its axis. -/
theorem mem_blk (t : Fin cfg1.N) (i : S50000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v48).slice (win1_2.rect t)).set ↔ _
  rw [View.set_slice_whole, Rect.mem_set_unit]
  exact Iff.rfl

/-- Every row of the result lies in the block of the point numbered by the row divided by 2000. -/
theorem cover (i : S50000x32.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 32 := (i 1).isLt
  let t : Fin cfg1.N := ⟨(i 0).val / 2000, by rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 32 ≤ (i 1).val ∧ (i 1).val < win1_2.index t (1 : Fin 2) * 32 + 32; omega

/-- After the region its result array is the host product of the arrays its input windows range over. -/
theorem result_eq (c : Dev nD) : (dat1 V c).arrAt 2 cfg1.N = prod V c :=
  (dat1 V c).arrAt_eq_of_cover 2 (prod V c) (fun t _ => flushed_eq V c t) (cover)

end Cert.KernelIdeal.Region1

end
-- ==== Proof.Region2.lean ====
/-
  Region 2 of the accelerator program as ONE whole-array function. The grid has 25 points; point t stages rows
  2000·t … 2000·t + 1999 of the [50000,32] operand and the whole [32,1] weight, multiplies them on the matrix unit
  (each rounded to bf16 first, which is the identity on the extended reals) into zeros, and writes rows
  2000·t … 2000·t + 1999 of the [50000,1] result. Entry (r, q) of the block point t writes is
  ∑ c, X (2000·t + r, c) · W (c, q): exactly entry (2000·t + r, q) of the host product X · W. The 25 blocks tile the
  result's rows, so after the region the result array IS the host product of the two arrays the region found.
-/
import proofs.«156860_j27178553049644_1_alg».proof.Proof.Gen.KernelIdeal.Frame
import proofs.«156860_j27178553049644_1_alg».proof.Proof.Gen.ReferenceIdeal
import proofs.«156860_j27178553049644_1_alg».proof.Proof.LibDotNN
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The host product of the two arrays the region's input windows range over. -/
def prod (c : Dev nD) : Buf (Elt Ideal) ((c : Thread nD τ).loc main_v66) :=
  Host.dotGeneral (F := Ideal) (φ₁ := .f32) (φ₂ := .f32) Cert.ReferenceIdeal.dot_S50000x32_S32x1_S50000x1_1_0_0_1_n_n none
    (V c main_v65 : FVec Ideal S50000x32 .f32) (V c main_arg6 : FVec Ideal S32x1 .f32)

/-- The body's stored value at (r, q): the sum over c of the products of the loaded blocks' entries. -/
theorem pay_apply (x0 : Vec Ideal S2000x32 .f32) (x1 : Vec Ideal S32x1 .f32) (r : Fin 2000) (q : Fin 1) :
    k2_pay1 x0 x1 (ix2 r q) = ∑ c : Fin 32, x0 (ix2 r c) * x1 (ix2 c q) := by
  unfold k2_pay1
  rw [shapeCast_self]
  exact Cert.LibDotNN.matmul_rounded_apply dot_S2000x32_S32x1_S2000x1_1_0_0_1_n_n_wf none .bf16 bitsLt_bf16_f32 bitsLt_bf16_f32 x0 x1 r q

/-- Where the windows' blocks sit, decided over the grid: the operand's and the result's blocks at point t are row
    block t, the weight's block is the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the host product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S2000x32) hz, View.ld_unit_zero (S := S32x1) hz]
  obtain ⟨e0, e1, e2, e3, e4, e5⟩ := idx_facts t
  refine funext fun (y : S2000x1.Idx) => ?_
  obtain ⟨r, q, rfl⟩ : ∃ (r : Fin 2000) (q : Fin 1), y = ix2 r q := ⟨y 0, y 1, eq_ix2 y⟩
  show k2_pay1 (iblk2 V c 0 t) (iblk2 V c 1 t) (ix2 r q) = prod V c (((cfg2.win 2).blk t).view.emb (ix2 r q))
  refine (pay_apply (iblk2 V c 0 t) (iblk2 V c 1 t) r q).trans ?_
  unfold prod
  refine Eq.trans ?_ (Cert.LibDotNN.dotGeneral_nn_apply_idx Cert.ReferenceIdeal.Gen.dot_S50000x32_S32x1_S50000x1_1_0_0_1_n_n_wf none
    (V c main_v65 : FVec Ideal S50000x32 .f32) (V c main_arg6 : FVec Ideal S32x1 .f32) (((cfg2.win 2).blk t).view.emb (ix2 r q))).symm
  refine Finset.sum_congr rfl fun k _ => ?_
  have hl : ((cfg2.win 0).blk t).view.emb (ix2 r k) = ix2 ((((cfg2.win 2).blk t).view.emb (ix2 r q)) 0) k := by
    funext a; apply Fin.ext
    match a with
    | ⟨0, _⟩ => show win2_0.index t (0 : Fin 2) * 2000 + 1 * r.val = win2_2.index t (0 : Fin 2) * 2000 + 1 * r.val; omega
    | ⟨1, _⟩ => show win2_0.index t (1 : Fin 2) * 32 + 1 * k.val = k.val; omega
  have hr : ((cfg2.win 1).blk t).view.emb (ix2 k q) = ix2 k ((((cfg2.win 2).blk t).view.emb (ix2 r q)) 1) := by
    funext a; apply Fin.ext
    match a with
    | ⟨0, _⟩ => show win2_1.index t (0 : Fin 2) * 32 + 1 * k.val = k.val; omega
    | ⟨1, _⟩ => show win2_1.index t (1 : Fin 2) * 1 + 1 * q.val = win2_2.index t (1 : Fin 2) * 1 + 1 * q.val; omega
  refine congrArg₂ _ ?_ ?_
  · exact congrArg (V c main_v65 : FVec Ideal S50000x32 .f32) hl
  · exact congrArg (V c main_arg6 : FVec Ideal S32x1 .f32) hr

/-- An index of the result array is in point t's block iff each coordinate is in the block's range on its axis. -/
theorem mem_blk (t : Fin cfg2.N) (i : S50000x1.Idx) :
    i ∈ ((cfg2.win 2).blk t).view.set ↔ ∀ a : Fin 2, win2_2.index t a * S2000x1.size a ≤ (i a).val ∧ (i a).val < win2_2.index t a * S2000x1.size a + S2000x1.size a := by
  show i ∈ ((View.whole main_v66).slice (win2_2.rect t)).set ↔ _
  rw [View.set_slice_whole, Rect.mem_set_unit]
  exact Iff.rfl

/-- Every row of the result lies in the block of the point numbered by the row divided by 2000. -/
theorem cover (i : S50000x1.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 1 := (i 1).isLt
  let t : Fin cfg2.N := ⟨(i 0).val / 2000, by rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 1 ≤ (i 1).val ∧ (i 1).val < win2_2.index t (1 : Fin 2) * 1 + 1; omega

/-- After the region its result array is the host product of the arrays its input windows range over. -/
theorem result_eq (c : Dev nD) : (dat2 V c).arrAt 2 cfg2.N = prod V c :=
  (dat2 V c).arrAt_eq_of_cover 2 (prod V c) (fun t _ => flushed_eq V c t) (cover)

end Cert.KernelIdeal.Region2

end
-- ==== Proof.Flat.lean ====
/-
  The accelerator program's buffer contents as ONE straight line of host operations. Each of the three kernel regions
  leaves in the core's buffers exactly what a single host matrix product would (the product of the two arrays its input
  windows range over, written to its result array; nothing else changed). So the contents at the last segment boundary are
  the fold, over the launch contents, of the program's host operations with the three regions replaced by three host
  products — a line of operations with the same shape as the reference program's.
-/
import proofs.«156860_j27178553049644_1_alg».proof.Proof.Gen.KernelIdeal.Frame
import proofs.«156860_j27178553049644_1_alg».proof.Proof.Region0
import proofs.«156860_j27178553049644_1_alg».proof.Proof.Region1
import proofs.«156860_j27178553049644_1_alg».proof.Proof.Region2
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Flat

open Cert.KernelIdeal Cert.KernelIdeal.Gen Idealize.ShloMosaic.StableHlo

variable (m : (ℓ : Loc nD τ sig) → Buf (Elt Ideal) ℓ) (ρ : Dev nD → PrngReg)

/-- Two lines of operations run one after the other leave what their concatenation leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Region 0 as a host operation: the host product of `main_arg0` and `main_arg2` written to `main_v30`. -/
def dot0 : HloOp τ sig (Elt Ideal) :=
  StableHlo.binary main_arg0 main_arg2 main_v30 ((fun l r => Host.dotGeneral (F := Ideal) (φ₁ := .f32) (φ₂ := .f32) Cert.ReferenceIdeal.dot_S50000x128_S128x64_S50000x64_1_0_0_1_n_n none l r) : (⟨S50000x128, .f32⟩ : BufTy).Contents (Elt Ideal) → (⟨S128x64, .f32⟩ : BufTy).Contents (Elt Ideal) → (⟨S50000x64, .f32⟩ : BufTy).Contents (Elt Ideal))

/-- What region 0 leaves in the core's buffers is what that one host operation would: the product in the result
    array (the region's blocks tile it), the two operand arrays as found (input windows are never written back), every
    other buffer untouched. -/
theorem W4_eq (c : Dev nD) : W4 m ρ c = dot0.result (W3 m ρ c) := by
  funext b
  by_cases h : ∃ w, Proc.devRef .tc (Pipeline.arrRef spec0 w) = b
  · obtain ⟨w, rfl⟩ := h
    rw [W4_arr m ρ c w]
    match w with
    | ⟨0, _⟩ =>
      rw [HloOp.result_of_not_mem (op := dot0) _ (by
        show Proc.devRef .tc main_arg0 ∉ ({Proc.devRef .tc main_v30} : Finset (DevRef τ sig))
        rw [Finset.mem_singleton]; exact StableHlo.devRef_ne_of_ne (by decide))]
      exact ((dat0 (V3 m ρ) c).arrAt_in 0 rfl _).trans (A_eq0 (V3 m ρ) c 0)
    | ⟨1, _⟩ =>
      rw [HloOp.result_of_not_mem (op := dot0) _ (by
        show Proc.devRef .tc main_arg2 ∉ ({Proc.devRef .tc main_v30} : Finset (DevRef τ sig))
        rw [Finset.mem_singleton]; exact StableHlo.devRef_ne_of_ne (by decide))]
      exact ((dat0 (V3 m ρ) c).arrAt_in 1 rfl _).trans (A_eq0 (V3 m ρ) c 1)
    | ⟨2, _⟩ =>
      refine (Cert.KernelIdeal.Region0.result_eq (V3 m ρ) c).trans ?_
      exact (StableHlo.binary_result main_arg0 main_arg2 main_v30 _ _ _ _ (W3 m ρ c)).symm
  · have hb : b ∉ dot0.writes := by
      show b ∉ ({Proc.devRef .tc main_v30} : Finset (DevRef τ sig))
      rw [Finset.mem_singleton]
      exact fun e => h ⟨2, e.symm⟩
    rw [HloOp.result_of_not_mem dot0 _ hb]
    unfold W4 Pipeline.withArrays
    rw [dif_neg h]

/-- Region 1 as a host operation: the host product of `main_v47` and `main_arg4` written to `main_v48`. -/
def dot1 : HloOp τ sig (Elt Ideal) :=
  StableHlo.binary main_v47 main_arg4 main_v48 ((fun l r => Host.dotGeneral (F := Ideal) (φ₁ := .f32) (φ₂ := .f32) Cert.ReferenceIdeal.dot_S50000x64_S64x32_S50000x32_1_0_0_1_n_n none l r) : (⟨S50000x64, .f32⟩ : BufTy).Contents (Elt Ideal) → (⟨S64x32, .f32⟩ : BufTy).Contents (Elt Ideal) → (⟨S50000x32, .f32⟩ : BufTy).Contents (Elt Ideal))

/-- What region 1 leaves in the core's buffers is what that one host operation would: the product in the result
    array (the region's blocks tile it), the two operand arrays as found (input windows are never written back), every
    other buffer untouched. -/
theorem W7_eq (c : Dev nD) : W7 m ρ c = dot1.result (W6 m ρ c) := by
  funext b
  by_cases h : ∃ w, Proc.devRef .tc (Pipeline.arrRef spec1 w) = b
  · obtain ⟨w, rfl⟩ := h
    rw [W7_arr m ρ c w]
    match w with
    | ⟨0, _⟩ =>
      rw [HloOp.result_of_not_mem (op := dot1) _ (by
        show Proc.devRef .tc main_v47 ∉ ({Proc.devRef .tc main_v48} : Finset (DevRef τ sig))
        rw [Finset.mem_singleton]; exact StableHlo.devRef_ne_of_ne (by decide))]
      exact ((dat1 (V6 m ρ) c).arrAt_in 0 rfl _).trans (A_eq1 (V6 m ρ) c 0)
    | ⟨1, _⟩ =>
      rw [HloOp.result_of_not_mem (op := dot1) _ (by
        show Proc.devRef .tc main_arg4 ∉ ({Proc.devRef .tc main_v48} : Finset (DevRef τ sig))
        rw [Finset.mem_singleton]; exact StableHlo.devRef_ne_of_ne (by decide))]
      exact ((dat1 (V6 m ρ) c).arrAt_in 1 rfl _).trans (A_eq1 (V6 m ρ) c 1)
    | ⟨2, _⟩ =>
      refine (Cert.KernelIdeal.Region1.result_eq (V6 m ρ) c).trans ?_
      exact (StableHlo.binary_result main_v47 main_arg4 main_v48 _ _ _ _ (W6 m ρ c)).symm
  · have hb : b ∉ dot1.writes := by
      show b ∉ ({Proc.devRef .tc main_v48} : Finset (DevRef τ sig))
      rw [Finset.mem_singleton]
      exact fun e => h ⟨2, e.symm⟩
    rw [HloOp.result_of_not_mem dot1 _ hb]
    unfold W7 Pipeline.withArrays
    rw [dif_neg h]

/-- Region 2 as a host operation: the host product of `main_v65` and `main_arg6` written to `main_v66`. -/
def dot2 : HloOp τ sig (Elt Ideal) :=
  StableHlo.binary main_v65 main_arg6 main_v66 ((fun l r => Host.dotGeneral (F := Ideal) (φ₁ := .f32) (φ₂ := .f32) Cert.ReferenceIdeal.dot_S50000x32_S32x1_S50000x1_1_0_0_1_n_n none l r) : (⟨S50000x32, .f32⟩ : BufTy).Contents (Elt Ideal) → (⟨S32x1, .f32⟩ : BufTy).Contents (Elt Ideal) → (⟨S50000x1, .f32⟩ : BufTy).Contents (Elt Ideal))

/-- What region 2 leaves in the core's buffers is what that one host operation would: the product in the result
    array (the region's blocks tile it), the two operand arrays as found (input windows are never written back), every
    other buffer untouched. -/
theorem W10_eq (c : Dev nD) : W10 m ρ c = dot2.result (W9 m ρ c) := by
  funext b
  by_cases h : ∃ w, Proc.devRef .tc (Pipeline.arrRef spec2 w) = b
  · obtain ⟨w, rfl⟩ := h
    rw [W10_arr m ρ c w]
    match w with
    | ⟨0, _⟩ =>
      rw [HloOp.result_of_not_mem (op := dot2) _ (by
        show Proc.devRef .tc main_v65 ∉ ({Proc.devRef .tc main_v66} : Finset (DevRef τ sig))
        rw [Finset.mem_singleton]; exact StableHlo.devRef_ne_of_ne (by decide))]
      exact ((dat2 (V9 m ρ) c).arrAt_in 0 rfl _).trans (A_eq2 (V9 m ρ) c 0)
    | ⟨1, _⟩ =>
      rw [HloOp.result_of_not_mem (op := dot2) _ (by
        show Proc.devRef .tc main_arg6 ∉ ({Proc.devRef .tc main_v66} : Finset (DevRef τ sig))
        rw [Finset.mem_singleton]; exact StableHlo.devRef_ne_of_ne (by decide))]
      exact ((dat2 (V9 m ρ) c).arrAt_in 1 rfl _).trans (A_eq2 (V9 m ρ) c 1)
    | ⟨2, _⟩ =>
      refine (Cert.KernelIdeal.Region2.result_eq (V9 m ρ) c).trans ?_
      exact (StableHlo.binary_result main_v65 main_arg6 main_v66 _ _ _ _ (W9 m ρ c)).symm
  · have hb : b ∉ dot2.writes := by
      show b ∉ ({Proc.devRef .tc main_v66} : Finset (DevRef τ sig))
      rw [Finset.mem_singleton]
      exact fun e => h ⟨2, e.symm⟩
    rw [HloOp.result_of_not_mem dot2 _ hb]
    unfold W10 Pipeline.withArrays
    rw [dif_neg h]

/-- The program's host operations in order, each region replaced by its host product. -/
def line : List (HloOp τ sig (Elt Ideal)) :=
  hostOps0 ++ (hostOps0_1 ++ (hostOps0_2 ++ (dot0 :: (hostOps1 ++ (hostOps1_1 ++ (dot1 :: (hostOps2 ++ (hostOps2_1 ++ (dot2 :: hostOps3)))))))))

/-- The fold of the line, stretch by stretch (a fold over a concatenation of literal lists computes). -/
theorem line_eq (V : Valuation τ sig (Elt Ideal)) :
    after line V = after hostOps3 (dot2.result (after hostOps2_1 (after hostOps2 (dot1.result (after hostOps1_1 (after hostOps1
      (dot0.result (after hostOps0_2 (after hostOps0_1 (after hostOps0 V)))))))))) := rfl

/-- The contents at the last segment boundary are the fold of that line over the launch contents. -/
theorem W11_eq (c : Dev nD) : W11 m ρ c = after line (W0 m ρ c) := by
  rw [line_eq]
  show after hostOps3 (W10 m ρ c) = _
  rw [W10_eq]
  show after hostOps3 (dot2.result (after hostOps2_1 (after hostOps2 (W7 m ρ c)))) = _
  rw [W7_eq]
  show after hostOps3 (dot2.result (after hostOps2_1 (after hostOps2 (dot1.result (after hostOps1_1 (after hostOps1 (W4 m ρ c))))))) = _
  rw [W4_eq]

end Cert.KernelIdeal.Flat

end
-- ==== Proof.Bridge.lean ====
/-
  The two programs as two straight lines of host operations that compute the same result.
  The accelerator program's line (its host operations, each kernel region replaced by the host matrix product it
  amounts to) and the reference program's line are the same operations on the same buffers, name for name:
  the edge lists with the self loops appended (two concatenations), the in-degree by a scatter of ones, its inverse
  square root where positive, the edge weight as the product of the two gathered end-point factors, and three layers
  of  product · gather by source · scale by edge weight · scatter-add by destination · add bias  (a rectifier after
  the first two). Folded over launch contents that agree on the arguments, the two lines leave the same result.
  The first seven operations (the two concatenations) are evaluated apart from the rest: what they leave in the two
  edge-list buffers is one function of the edge-index argument, and the remaining operations read those buffers and
  the other arguments only.
-/
import proofs.«156860_j27178553049644_1_alg».proof.Proof.Flat
import proofs.«156860_j27178553049644_1_alg».proof.Proof.RefRun

set_option maxRecDepth 16384

noncomputable section

open Idealize.ShloMosaic Idealize.ShloMosaic.TcCoe Idealize.SL.Sem Idealize.ShloMosaic.StableHlo

namespace Cert.Bridge

/-- Buffer contents of a core of the accelerator program, and of the reference program. -/
abbrev KV := Valuation Cert.KernelIdeal.τ Cert.KernelIdeal.sig (Elt Ideal)
abbrev RV := Valuation Cert.ReferenceIdeal.τ Cert.ReferenceIdeal.sig (Elt Ideal)

/-- The first seven operations of either line: the source and destination lists with the self loops appended. -/
def headK : List (HloOp Cert.KernelIdeal.τ Cert.KernelIdeal.sig (Elt Ideal)) := (Cert.KernelIdeal.Gen.hostOps0 (F := Ideal)).take 7
def headR : List (HloOp Cert.ReferenceIdeal.τ Cert.ReferenceIdeal.sig (Elt Ideal)) := (Cert.ReferenceIdeal.RunP.ops (F := Ideal)).take 7
/-- The remaining operations of either line. -/
def tailK : List (HloOp Cert.KernelIdeal.τ Cert.KernelIdeal.sig (Elt Ideal)) :=
  (Cert.KernelIdeal.Gen.hostOps0 (F := Ideal)).drop 7 ++ (Cert.KernelIdeal.Gen.hostOps0_1 ++ (Cert.KernelIdeal.Gen.hostOps0_2 ++ (Cert.KernelIdeal.Flat.dot0 :: (Cert.KernelIdeal.Gen.hostOps1 ++ (Cert.KernelIdeal.Gen.hostOps1_1 ++ (Cert.KernelIdeal.Flat.dot1 :: (Cert.KernelIdeal.Gen.hostOps2 ++ (Cert.KernelIdeal.Gen.hostOps2_1 ++ (Cert.KernelIdeal.Flat.dot2 :: Cert.KernelIdeal.Gen.hostOps3)))))))))
def tailR : List (HloOp Cert.ReferenceIdeal.τ Cert.ReferenceIdeal.sig (Elt Ideal)) := (Cert.ReferenceIdeal.RunP.ops (F := Ideal)).drop 7

theorem lineK_split : Cert.KernelIdeal.Flat.line = headK ++ tailK := by
  unfold Cert.KernelIdeal.Flat.line headK tailK
  conv_rhs => rw [← List.append_assoc, List.take_append_drop]

theorem lineR_split : (Cert.ReferenceIdeal.RunP.ops (F := Ideal)) = headR ++ tailR := by
  unfold headR tailR
  rw [List.take_append_drop]

/-- Two lines of operations run one after the other leave what their concatenation leaves (reference program's buffers). -/
theorem after_appendR (l₁ l₂ : List (HloOp Cert.ReferenceIdeal.τ Cert.ReferenceIdeal.sig (Elt Ideal))) (V : RV) :
    after (l₁ ++ l₂) V = after l₂ (after l₁ V) := by
  induction l₁ generalizing V with
  | nil => rfl
  | cons op l ih => simp only [List.cons_append, after_cons, ih]

/-! ## The first seven operations -/

section Head
variable (V : KV) (V' : RV)
  (h1 : V (Proc.devRef .tc Cert.KernelIdeal.main_arg1) = V' (Proc.devRef .tc Cert.ReferenceIdeal.main_arg1))

include h1 in
/-- The source list with the self loops appended is the same function of the edge-index argument in both lines. -/
theorem head_v3 : after headK V (Proc.devRef .tc Cert.KernelIdeal.main_v3) = after headR V' (Proc.devRef .tc Cert.ReferenceIdeal.main_v3) := by
  simp only [headK, headR, Cert.KernelIdeal.Gen.hostOps0, Cert.ReferenceIdeal.RunP.ops, List.take]
  after_results
  rw [h1]
  rfl

include h1 in
/-- The destination list with the self loops appended, likewise. -/
theorem head_v6 : after headK V (Proc.devRef .tc Cert.KernelIdeal.main_v6) = after headR V' (Proc.devRef .tc Cert.ReferenceIdeal.main_v6) := by
  simp only [headK, headR, Cert.KernelIdeal.Gen.hostOps0, Cert.ReferenceIdeal.RunP.ops, List.take]
  after_results
  rw [h1]
  rfl

/-- The first seven operations leave argument 0 alone. -/
theorem headK_arg0 : after headK V (Proc.devRef .tc Cert.KernelIdeal.main_arg0) = V (Proc.devRef .tc Cert.KernelIdeal.main_arg0) := by
  simp only [headK, Cert.KernelIdeal.Gen.hostOps0, List.take]
  after_results
theorem headR_arg0 : after headR V' (Proc.devRef .tc Cert.ReferenceIdeal.main_arg0) = V' (Proc.devRef .tc Cert.ReferenceIdeal.main_arg0) := by
  simp only [headR, Cert.ReferenceIdeal.RunP.ops, List.take]
  after_results
/-- The first seven operations leave argument 2 alone. -/
theorem headK_arg2 : after headK V (Proc.devRef .tc Cert.KernelIdeal.main_arg2) = V (Proc.devRef .tc Cert.KernelIdeal.main_arg2) := by
  simp only [headK, Cert.KernelIdeal.Gen.hostOps0, List.take]
  after_results
theorem headR_arg2 : after headR V' (Proc.devRef .tc Cert.ReferenceIdeal.main_arg2) = V' (Proc.devRef .tc Cert.ReferenceIdeal.main_arg2) := by
  simp only [headR, Cert.ReferenceIdeal.RunP.ops, List.take]
  after_results
/-- The first seven operations leave argument 3 alone. -/
theorem headK_arg3 : after headK V (Proc.devRef .tc Cert.KernelIdeal.main_arg3) = V (Proc.devRef .tc Cert.KernelIdeal.main_arg3) := by
  simp only [headK, Cert.KernelIdeal.Gen.hostOps0, List.take]
  after_results
theorem headR_arg3 : after headR V' (Proc.devRef .tc Cert.ReferenceIdeal.main_arg3) = V' (Proc.devRef .tc Cert.ReferenceIdeal.main_arg3) := by
  simp only [headR, Cert.ReferenceIdeal.RunP.ops, List.take]
  after_results
/-- The first seven operations leave argument 4 alone. -/
theorem headK_arg4 : after headK V (Proc.devRef .tc Cert.KernelIdeal.main_arg4) = V (Proc.devRef .tc Cert.KernelIdeal.main_arg4) := by
  simp only [headK, Cert.KernelIdeal.Gen.hostOps0, List.take]
  after_results
theorem headR_arg4 : after headR V' (Proc.devRef .tc Cert.ReferenceIdeal.main_arg4) = V' (Proc.devRef .tc Cert.ReferenceIdeal.main_arg4) := by
  simp only [headR, Cert.ReferenceIdeal.RunP.ops, List.take]
  after_results
/-- The first seven operations leave argument 5 alone. -/
theorem headK_arg5 : after headK V (Proc.devRef .tc Cert.KernelIdeal.main_arg5) = V (Proc.devRef .tc Cert.KernelIdeal.main_arg5) := by
  simp only [headK, Cert.KernelIdeal.Gen.hostOps0, List.take]
  after_results
theorem headR_arg5 : after headR V' (Proc.devRef .tc Cert.ReferenceIdeal.main_arg5) = V' (Proc.devRef .tc Cert.ReferenceIdeal.main_arg5) := by
  simp only [headR, Cert.ReferenceIdeal.RunP.ops, List.take]
  after_results
/-- The first seven operations leave argument 6 alone. -/
theorem headK_arg6 : after headK V (Proc.devRef .tc Cert.KernelIdeal.main_arg6) = V (Proc.devRef .tc Cert.KernelIdeal.main_arg6) := by
  simp only [headK, Cert.KernelIdeal.Gen.hostOps0, List.take]
  after_results
theorem headR_arg6 : after headR V' (Proc.devRef .tc Cert.ReferenceIdeal.main_arg6) = V' (Proc.devRef .tc Cert.ReferenceIdeal.main_arg6) := by
  simp only [headR, Cert.ReferenceIdeal.RunP.ops, List.take]
  after_results
/-- The first seven operations leave argument 7 alone. -/
theorem headK_arg7 : after headK V (Proc.devRef .tc Cert.KernelIdeal.main_arg7) = V (Proc.devRef .tc Cert.KernelIdeal.main_arg7) := by
  simp only [headK, Cert.KernelIdeal.Gen.hostOps0, List.take]
  after_results
theorem headR_arg7 : after headR V' (Proc.devRef .tc Cert.ReferenceIdeal.main_arg7) = V' (Proc.devRef .tc Cert.ReferenceIdeal.main_arg7) := by
  simp only [headR, Cert.ReferenceIdeal.RunP.ops, List.take]
  after_results

end Head

/-! ## The remaining operations -/

set_option maxHeartbeats 40000000 in
/-- From contents that agree on the two edge lists and on the float arguments, the remaining operations of the two lines
    leave the same result: they are the same operations, name for name. -/
theorem tail_eq (U : KV) (U' : RV)
    (h3 : U (Proc.devRef .tc Cert.KernelIdeal.main_v3) = U' (Proc.devRef .tc Cert.ReferenceIdeal.main_v3))
    (h6 : U (Proc.devRef .tc Cert.KernelIdeal.main_v6) = U' (Proc.devRef .tc Cert.ReferenceIdeal.main_v6))
    (a0 : U (Proc.devRef .tc Cert.KernelIdeal.main_arg0) = U' (Proc.devRef .tc Cert.ReferenceIdeal.main_arg0))
    (a2 : U (Proc.devRef .tc Cert.KernelIdeal.main_arg2) = U' (Proc.devRef .tc Cert.ReferenceIdeal.main_arg2))
    (a3 : U (Proc.devRef .tc Cert.KernelIdeal.main_arg3) = U' (Proc.devRef .tc Cert.ReferenceIdeal.main_arg3))
    (a4 : U (Proc.devRef .tc Cert.KernelIdeal.main_arg4) = U' (Proc.devRef .tc Cert.ReferenceIdeal.main_arg4))
    (a5 : U (Proc.devRef .tc Cert.KernelIdeal.main_arg5) = U' (Proc.devRef .tc Cert.ReferenceIdeal.main_arg5))
    (a6 : U (Proc.devRef .tc Cert.KernelIdeal.main_arg6) = U' (Proc.devRef .tc Cert.ReferenceIdeal.main_arg6))
    (a7 : U (Proc.devRef .tc Cert.KernelIdeal.main_arg7) = U' (Proc.devRef .tc Cert.ReferenceIdeal.main_arg7)) :
    after tailK U (Proc.devRef .tc Cert.KernelIdeal.main_v82) = after tailR U' (Proc.devRef .tc Cert.ReferenceIdeal.main_v82) := by
  simp only [tailK, tailR, Cert.KernelIdeal.Gen.hostOps0, Cert.KernelIdeal.Gen.hostOps0_1, Cert.KernelIdeal.Gen.hostOps0_2, Cert.KernelIdeal.Gen.hostOps1, Cert.KernelIdeal.Gen.hostOps1_1,
    Cert.KernelIdeal.Gen.hostOps2, Cert.KernelIdeal.Gen.hostOps2_1, Cert.KernelIdeal.Gen.hostOps3, Cert.KernelIdeal.Flat.dot0, Cert.KernelIdeal.Flat.dot1, Cert.KernelIdeal.Flat.dot2,
    Cert.ReferenceIdeal.RunP.ops, List.drop, List.cons_append, List.nil_append]
  after_results_simp
  rw [h3, h6, a0, a2, a3, a4, a5, a6, a7]
  rfl

/-! ## The two lines -/

/-- Folded over contents that agree on the eight arguments, the two lines leave the same result. -/
theorem lines_eq (V : KV) (V' : RV)
    (a0 : V (Proc.devRef .tc Cert.KernelIdeal.main_arg0) = V' (Proc.devRef .tc Cert.ReferenceIdeal.main_arg0))
    (a1 : V (Proc.devRef .tc Cert.KernelIdeal.main_arg1) = V' (Proc.devRef .tc Cert.ReferenceIdeal.main_arg1))
    (a2 : V (Proc.devRef .tc Cert.KernelIdeal.main_arg2) = V' (Proc.devRef .tc Cert.ReferenceIdeal.main_arg2))
    (a3 : V (Proc.devRef .tc Cert.KernelIdeal.main_arg3) = V' (Proc.devRef .tc Cert.ReferenceIdeal.main_arg3))
    (a4 : V (Proc.devRef .tc Cert.KernelIdeal.main_arg4) = V' (Proc.devRef .tc Cert.ReferenceIdeal.main_arg4))
    (a5 : V (Proc.devRef .tc Cert.KernelIdeal.main_arg5) = V' (Proc.devRef .tc Cert.ReferenceIdeal.main_arg5))
    (a6 : V (Proc.devRef .tc Cert.KernelIdeal.main_arg6) = V' (Proc.devRef .tc Cert.ReferenceIdeal.main_arg6))
    (a7 : V (Proc.devRef .tc Cert.KernelIdeal.main_arg7) = V' (Proc.devRef .tc Cert.ReferenceIdeal.main_arg7)) :
    after Cert.KernelIdeal.Flat.line V (Proc.devRef .tc Cert.KernelIdeal.main_v82) = after (Cert.ReferenceIdeal.RunP.ops (F := Ideal)) V' (Proc.devRef .tc Cert.ReferenceIdeal.main_v82) := by
  rw [lineK_split, lineR_split, Cert.KernelIdeal.Flat.after_append, after_appendR]
  exact tail_eq (after headK V) (after headR V') (head_v3 V V' a1) (head_v6 V V' a1)
    ((headK_arg0 V).trans (a0.trans (headR_arg0 V').symm))
    ((headK_arg2 V).trans (a2.trans (headR_arg2 V').symm))
    ((headK_arg3 V).trans (a3.trans (headR_arg3 V').symm))
    ((headK_arg4 V).trans (a4.trans (headR_arg4 V').symm))
    ((headK_arg5 V).trans (a5.trans (headR_arg5 V').symm))
    ((headK_arg6 V).trans (a6.trans (headR_arg6 V').symm))
    ((headK_arg7 V).trans (a7.trans (headR_arg7 V').symm))

end Cert.Bridge

end
-- ==== Proof.lean ====
/-
  `Cert.Claim` for a three-layer graph convolution: per layer, the node features times a weight matrix, each edge's
  message the source's row scaled by the edge weight, the messages summed into their destinations, the bias added
  (a rectifier after the first two layers); the edge weights are the inverse square roots of the end points' in-degrees
  (self loops appended). The accelerator program computes the three feature-by-weight products in kernel regions
  (25 row blocks of 2000 rows each, operands rounded to bf16 on the way into the matrix unit) and everything else on
  the host; the reference computes the products with the host's own matrix product.

  At the ideal values a change of float format is the identity and both matrix products are the plain finite sum
  ∑ c, X (r, c) · W (c, q), so each region leaves in its result array exactly the host product of the arrays it read
  (Region0–2), and the accelerator program's buffers end at the fold of its host operations with each region replaced
  by that host product (Flat). That line of operations and the reference's are the same operations, name for name,
  so from launch contents agreeing on the arguments they leave the same result (Bridge) — no arithmetic law is
  used beyond the identity of the two products, and the precondition is never opened.
  The frames of the two accelerator programs are the generated ones; the reference's frame and result come from its
  run as a line of host operations (RefRun, RefArgs); the accelerator program's run with its result named is KernelRun.
  The idealization rewrote nothing, so `preserves` is `True`.
-/
import proofs.«156860_j27178553049644_1_alg».proof.Defs
import proofs.«156860_j27178553049644_1_alg».proof.Proof.Gen.Kernel
import proofs.«156860_j27178553049644_1_alg».proof.Proof.Gen.Kernel.Skeleton
import proofs.«156860_j27178553049644_1_alg».proof.Proof.Gen.Kernel.Launch
import proofs.«156860_j27178553049644_1_alg».proof.Proof.Gen.Kernel.Points
import proofs.«156860_j27178553049644_1_alg».proof.Proof.Gen.Kernel.Frame
import proofs.«156860_j27178553049644_1_alg».proof.Proof.Gen.KernelIdeal
import proofs.«156860_j27178553049644_1_alg».proof.Proof.Gen.KernelIdeal.Skeleton
import proofs.«156860_j27178553049644_1_alg».proof.Proof.Gen.KernelIdeal.Launch
import proofs.«156860_j27178553049644_1_alg».proof.Proof.Gen.KernelIdeal.Points
import proofs.«156860_j27178553049644_1_alg».proof.Proof.Gen.KernelIdeal.Frame
import proofs.«156860_j27178553049644_1_alg».proof.Proof.Gen.ReferenceIdeal
import proofs.«156860_j27178553049644_1_alg».proof.Proof.Gen.Pre_finite_inputs
import proofs.«156860_j27178553049644_1_alg».proof.Proof.KernelRun
import proofs.«156860_j27178553049644_1_alg».proof.Proof.RefArgs
import proofs.«156860_j27178553049644_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and its line of operations writes no argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefArgs.keep_arg0 _),
     (h c Cert.ReferenceIdeal.main_arg1).trans (Cert.ReferenceIdeal.RefArgs.keep_arg1 _),
     (h c Cert.ReferenceIdeal.main_arg2).trans (Cert.ReferenceIdeal.RefArgs.keep_arg2 _),
     (h c Cert.ReferenceIdeal.main_arg3).trans (Cert.ReferenceIdeal.RefArgs.keep_arg3 _),
     (h c Cert.ReferenceIdeal.main_arg4).trans (Cert.ReferenceIdeal.RefArgs.keep_arg4 _),
     (h c Cert.ReferenceIdeal.main_arg5).trans (Cert.ReferenceIdeal.RefArgs.keep_arg5 _),
     (h c Cert.ReferenceIdeal.main_arg6).trans (Cert.ReferenceIdeal.RefArgs.keep_arg6 _),
     (h c Cert.ReferenceIdeal.main_arg7).trans (Cert.ReferenceIdeal.RefArgs.keep_arg7 _)⟩)
    (Cert.ReferenceIdeal.RunP.run (F := Ideal) m ρ)

/-- The ideal pass rewrote no operation. -/
theorem preserves : Cert.preserves_Kernel_KernelIdeal := trivial

/-- Both idealized programs run; the accelerator program's result is what its line of host operations (regions as host
    products) leaves, the reference's what its own line leaves, and from arguments that agree the two lines leave the
    same array. -/
theorem algebraic : Cert.algebraic_KernelIdeal_ReferenceIdeal := by
  intro m ρ m' ρ' _ hagree
  refine ⟨fun c => Cert.KernelIdeal.Gen.W11 m ρ c (Proc.devRef .tc Cert.KernelIdeal.main_v82),
    Cert.KernelIdeal.RunV.run (F := Ideal) m ρ, ?_⟩
  refine (θ_run Cert.ReferenceIdeal.defs _ _).mono (fun _ h c => ?_) (Cert.ReferenceIdeal.RunP.run (F := Ideal) m' ρ')
  obtain ⟨a0, a1, a2, a3, a4, a5, a6, a7⟩ := hagree c
  refine ⟨(h c Cert.ReferenceIdeal.main_v82).trans ?_,
     (h c Cert.ReferenceIdeal.main_arg0).trans (Cert.ReferenceIdeal.RefArgs.keep_arg0 _),
     (h c Cert.ReferenceIdeal.main_arg1).trans (Cert.ReferenceIdeal.RefArgs.keep_arg1 _),
     (h c Cert.ReferenceIdeal.main_arg2).trans (Cert.ReferenceIdeal.RefArgs.keep_arg2 _),
     (h c Cert.ReferenceIdeal.main_arg3).trans (Cert.ReferenceIdeal.RefArgs.keep_arg3 _),
     (h c Cert.ReferenceIdeal.main_arg4).trans (Cert.ReferenceIdeal.RefArgs.keep_arg4 _),
     (h c Cert.ReferenceIdeal.main_arg5).trans (Cert.ReferenceIdeal.RefArgs.keep_arg5 _),
     (h c Cert.ReferenceIdeal.main_arg6).trans (Cert.ReferenceIdeal.RefArgs.keep_arg6 _),
     (h c Cert.ReferenceIdeal.main_arg7).trans (Cert.ReferenceIdeal.RefArgs.keep_arg7 _)⟩
  exact ((congrFun (Cert.KernelIdeal.Flat.W11_eq m ρ c) (Proc.devRef .tc Cert.KernelIdeal.main_v82)).trans
    (Cert.Bridge.lines_eq (Cert.KernelIdeal.Gen.W0 m ρ c) (launchContents m' c)
      a0.symm a1.symm a2.symm a3.symm a4.symm a5.symm a6.symm a7.symm)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
